-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S128x1024 : Shape := ⟨2, ![128, 1024]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S128x1024 : S_.BroadcastsInDim S128x1024 (![] : Fin 0 → Fin S128x1024.rank)
  reducesTo_S128x1024_S_d0_1 : S128x1024.ReducesTo [0, 1] S_

variable [Facts]

def fn {F : FTy → Type} [FloatOps F] (main_arg0 : FVec F S32x1024x1024 .f32) (main_arg1 : FVec F S128x1024 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  main_v8
-- ==== Kernel.lean ====
abbrev S32x1024x1024 : Shape := ⟨3, ![32, 1024, 1024]⟩
abbrev S128x1024 : Shape := ⟨2, ![128, 1024]⟩
abbrev S1024x128 : Shape := ⟨2, ![1024, 128]⟩
abbrev S1x1024x1024 : Shape := ⟨3, ![1, 1024, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 4
  | .vmem => 5
  | .smem => 0
  | _ => 0

abbrev bufTy : (tb : Table) → Fin (tcTables nBuf tb) → BufTy
  | .hbm, ⟨0, _⟩ => ⟨S32x1024x1024, .f32⟩
  | .hbm, ⟨1, _⟩ => ⟨S128x1024, .f32⟩
  | .hbm, ⟨2, _⟩ => ⟨S1024x128, .f32⟩
  | .hbm, ⟨3, _⟩ => ⟨S32x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x128, .f32⟩
  | .local _ .vmem, ⟨3, _⟩ => ⟨S1x1024x1024, .f32⟩
  | .local _ .vmem, ⟨4, _⟩ => ⟨S1x1024x1024, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S128x1024_S1024x128_1_0 : S128x1024.Transposes [1, 0] S1024x128
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  reduces_S1024x128_S1024 : S1024x128.Reduces [1] S1024
  shapeCasts_S1024_S1024x1 : S1024.ShapeCasts S1024x1
  transposes_S1024x1_p1_0_S1x1024 : S1024x1.Transposes [1, 0] S1x1024
  transposes_S1024x128_p1_0_S128x1024 : S1024x128.Transposes [1, 0] S128x1024
  broadcasts_S1x1024_S1024x1024 : S1x1024.Broadcasts S1024x1024
  broadcasts_S1024x1_S1024x1024 : S1024x1.Broadcasts S1024x1024
  shapeCasts_S1024x1024_S1x1024x1024 : S1024x1024.ShapeCasts S1x1024x1024
  dot_S1024x1024_S1024x128_S1024x128_1_0_0_1_n_n_wf : DotDims.WF S1024x1024 S1024x128 S1024x128 [1] [0] [0] [1] [] []
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S32x1024x1024.size a
  hwx0_0 : ∀ i : grid0.Coords, EltTy.bits .f32 = 32 ∨ (Rect.block (s := S32x1024x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S32x1024x1024.size a
  hwx0_2 : ∀ i : grid0.Coords, EltTy.bits .f32 = 32 ∨ (Rect.block (s := S32x1024x1024) S1x1024x1024.size (cc0_transform_2 i) (hinb0_2 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1024x1024 : Shape := ⟨3, ![32, 1024, 1024]⟩
abbrev S128x1024 : Shape := ⟨2, ![128, 1024]⟩
abbrev S32x1024x128 : Shape := ⟨3, ![32, 1024, 128]⟩
abbrev S_ : Shape := ⟨0, ![]⟩
abbrev S32x1024 : Shape := ⟨2, ![32, 1024]⟩
abbrev S32x1024x1 : Shape := ⟨3, ![32, 1024, 1]⟩
abbrev S32x1x1024 : Shape := ⟨3, ![32, 1, 1024]⟩

abbrev nBuf : Space → Nat
  | .hbm => 16
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S128x1024, .f32⟩
  | .hbm, ⟨2, _⟩ => ⟨S32x1024x128, .f32⟩
  | .hbm, ⟨3, _⟩ => ⟨S32x1024x128, .f32⟩
  | .hbm, ⟨4, _⟩ => ⟨S_, .f32⟩
  | .hbm, ⟨5, _⟩ => ⟨S32x1024, .f32⟩
  | .hbm, ⟨6, _⟩ => ⟨S32x1024x1, .f32⟩
  | .hbm, ⟨7, _⟩ => ⟨S32x1024x1024, .f32⟩
  | .hbm, ⟨8, _⟩ => ⟨S32x1x1024, .f32⟩
  | .hbm, ⟨9, _⟩ => ⟨S_, .f32⟩
  | .hbm, ⟨10, _⟩ => ⟨S32x1024x1024, .f32⟩
  | .hbm, ⟨11, _⟩ => ⟨S32x1024x1024, .f32⟩
  | .hbm, ⟨12, _⟩ => ⟨S32x1024x1024, .f32⟩
  | .hbm, ⟨13, _⟩ => ⟨S32x1024x1024, .f32⟩
  | .hbm, ⟨14, _⟩ => ⟨S32x1024x1024, .f32⟩
  | .hbm, ⟨15, _⟩ => ⟨S32x1024x1024, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]

class Facts₀ : Prop where
  reducesTo_S32x1024x128_S32x1024_d2 : S32x1024x128.ReducesTo [2] S32x1024
  h_S_ : 0 < S_.numel
  bcast_S32x1024_S32x1024x1_0_1 : S32x1024.BroadcastsInDim S32x1024x1 (![0, 1] : Fin 2 → Fin S32x1024x1.rank)
  transposes_S32x1024x1_S32x1x1024_0_2_1 : S32x1024x1.Transposes [0, 2, 1] S32x1x1024
  bcast_S_S32x1024x1024 : S_.BroadcastsInDim S32x1024x1024 (![] : Fin 0 → Fin S32x1024x1024.rank)
  bcast_S32x1x1024_S32x1024x1024_0_1_2 : S32x1x1024.BroadcastsInDim S32x1024x1024 (![0, 1, 2] : Fin 3 → Fin S32x1024x1024.rank)
  bcast_S32x1024x1_S32x1024x1024_0_1_2 : S32x1024x1.BroadcastsInDim S32x1024x1024 (![0, 1, 2] : Fin 3 → Fin S32x1024x1024.rank)
  dot_S32x1024x1024_S128x1024_S32x1024x128_2_1_01_0_n_n_wf : DotDims.WF S32x1024x1024 S128x1024 S32x1024x128 [2] [1] [0, 1] [0] [] []
  dot_S32x1024x128_S32x1024x128_S32x1024x1024_2_2_1_1_0_0_wf : DotDims.WF S32x1024x128 S32x1024x128 S32x1024x1024 [2] [2] [1] [1] [0] [0]

variable [Facts₀]

def dot_S32x1024x1024_S128x1024_S32x1024x128_2_1_01_0_n_n : DotDims S32x1024x1024 S128x1024 S32x1024x128 where
  lhsContracting := [2]
  rhsContracting := [1]
  lhsNonContracting := [0, 1]
  rhsNonContracting := [0]
  lhsBatch := []
  rhsBatch := []
  wf := dot_S32x1024x1024_S128x1024_S32x1024x128_2_1_01_0_n_n_wf
def dot_S32x1024x128_S32x1024x128_S32x1024x1024_2_2_1_1_0_0 : DotDims S32x1024x128 S32x1024x128 S32x1024x1024 where
  lhsContracting := [2]
  rhsContracting := [2]
  lhsNonContracting := [1]
  rhsNonContracting := [1]
  lhsBatch := [0]
  rhsBatch := [0]
  wf := dot_S32x1024x128_S32x1024x128_S32x1024x1024_2_2_1_1_0_0_wf

class Facts : Prop extends Facts₀ where

variable [Facts]
-- ==== Proof.Spec.lean ====
/-
  Pairwise squared distances of projected rows, as one function of the two argument arrays.

  For each of 32 batches, the 1024 rows of the embeddings (each of 1024 entries) are projected onto the 128 rows of
  the weights: the projection of row s on weight row r is the sum over d of e(b, s, d) · w(r, d). The squared norm of a
  projected row is the sum over r of its squared entries, the Gram entry of rows i and j the sum over r of the products
  of their entries, and the squared distance of rows i and j is (norm j − 2 · gram i j) + norm i, in that order of
  operations — the order both programs compute it in, so nothing here is re-associated and no law beyond re-indexing
  a sum is needed to set them side by side.

  The distance is stated over any table of projected rows (`distOf`), so that a program that holds the projections in
  another layout meets the same three sums.
-/
import Idealize.ShloMosaic.PureOps.Ideal
import Idealize.ShloMosaic.Lib.ValueIdx

noncomputable section

open scoped BigOperators

namespace Cert.PairDist

open Idealize.ShloMosaic Idealize.ShloMosaic.ValueIdx

/-- The embeddings, and the result: 32 batches of 1024 rows of 1024 entries. -/
abbrev SE : Shape := ⟨3, ![32, 1024, 1024]⟩
/-- The weights: 128 rows of 1024 entries. -/
abbrev SW : Shape := ⟨2, ![128, 1024]⟩

/-- The factor of the Gram term: the number 2 as both programs spell it. -/
def two : EReal := Ideal.ofBits .f32 0x40000000#32

/-- The squared norm of row `s` of a table of projected rows. -/
def sqnOf (P : Fin 1024 → Fin 128 → EReal) (s : Fin 1024) : EReal := ∑ r : Fin 128, P s r * P s r

/-- The Gram entry of rows `i` and `j` of a table of projected rows. -/
def gramOf (P : Fin 1024 → Fin 128 → EReal) (i j : Fin 1024) : EReal := ∑ r : Fin 128, P i r * P j r

/-- The squared distance of rows `i` and `j`: (norm j − 2 · gram i j) + norm i. -/
def distOf (P : Fin 1024 → Fin 128 → EReal) (i j : Fin 1024) : EReal :=
  (sqnOf P j - two * gramOf P i j) + sqnOf P i

variable (e : SE.Idx → EReal) (w : SW.Idx → EReal)

/-- Row `s` of batch `b` projected on weight row `r`. -/
def proj (b : Fin 32) (s : Fin 1024) (r : Fin 128) : EReal := ∑ d : Fin 1024, e (ix3 b s d) * w (ix2 r d)

/-- The squared distance of projected rows `i` and `j` of batch `b`. -/
def distAt (b : Fin 32) (i j : Fin 1024) : EReal := distOf (proj e w b) i j

/-- The whole result array. -/
def dist : SE.Idx → EReal := fun x => distAt e w (x 0) (x 1) (x 2)

theorem dist_ix3 (b : Fin 32) (i j : Fin 1024) : dist e w (ix3 b i j) = distAt e w b i j := rfl

end Cert.PairDist

end
-- ==== Proof.RefDist.lean ====
/-
  The reference computes the squared distances of the specification.

  Read one operation at a time, at an index: the first contraction is the projection of a row on a weight row
  (the contracted coordinate runs over the 1024 entries of both), the sum of its squares over the 128 weight rows is
  the squared norm (the sum starts from the zero word, which adds nothing), the batched contraction of the projections
  with themselves is the Gram entry, and the three re-layings of the norms — kept as a unit axis, swapped to the other
  side, broadcast over the square — read the norm of row j, respectively of row i, at entry (i, j). What is left is the
  specification's own expression, operation for operation.
-/
import proofs.«155389_j61022895341727_1_alg».proof.Proof.Gen.ReferenceIdeal.Read
import proofs.«155389_j61022895341727_1_alg».proof.Proof.Spec

noncomputable section

open scoped BigOperators

namespace Cert.PairDist.Ref

open Idealize.ShloMosaic Idealize.ShloMosaic.ValueIdx Cert.ReferenceIdeal Cert.ReferenceIdeal.Read Cert.PairDist

variable (x0 : (⟨S32x1024x1024, .f32⟩ : BufTy).Contents (Elt Ideal)) (x1 : (⟨S128x1024, .f32⟩ : BufTy).Contents (Elt Ideal))

/-- The first contraction at (b, s, r): row s of batch b projected on weight row r. -/
theorem proj_at (b : Fin 32) (s : Fin 1024) (r : Fin 128) :
    val_main_v0 (F := Ideal) x0 x1 (ix3 b s r) = proj x0 x1 b s r := by
  rw [val_main_v0_apply]
  unfold proj
  refine Finset.sum_congr rfl fun k _ => ?_
  have hl : lidx_main_v0 (ix3 b s r) k = ix3 b s k :=
    funext fun a => Fin.ext (by match a with | ⟨0, _⟩ => rfl | ⟨1, _⟩ => rfl | ⟨2, _⟩ => rfl)
  have hr : ridx_main_v0 (ix3 b s r) k = ix2 r k :=
    funext fun a => Fin.ext (by match a with | ⟨0, _⟩ => rfl | ⟨1, _⟩ => rfl)
  rw [hl, hr]

/-- The sum of the squared projections over the weight rows, at (b, s): the squared norm of the projected row. -/
theorem sqn_at (b : Fin 32) (s : Fin 1024) :
    val_main_v2 (F := Ideal) x0 x1 (ix2 b s) = sqnOf (proj x0 x1 b) s := by
  rw [val_main_v2_apply, val_main_cst_apply, Ideal.ofBits_def, Ideal.ofBits_zero_f32, zero_add]
  unfold sqnOf
  refine Finset.sum_congr rfl fun k _ => ?_
  have hi : idx_main_v2 (ix2 b s) k = ix3 b s k :=
    funext fun a => Fin.ext (by match a with | ⟨0, _⟩ => rfl | ⟨1, _⟩ => rfl | ⟨2, _⟩ => rfl)
  rw [hi, val_main_v1_apply, proj_at]
  rfl

/-- The norm kept with a unit axis reads the same norm, whatever the unit coordinate. -/
theorem sqn_kept_at (b : Fin 32) (s : Fin 1024) (u : Fin 1) :
    val_main_v3 (F := Ideal) x0 x1 (ix3 b s u) = sqnOf (proj x0 x1 b) s := by
  have hi : idx_main_v3 (ix3 b s u) = ix2 b s :=
    funext fun a => Fin.ext (by match a with | ⟨0, _⟩ => rfl | ⟨1, _⟩ => rfl)
  rw [val_main_v3_apply, hi, sqn_at]

/-- The batched contraction of the projections with themselves, at (b, i, j): the Gram entry of rows i and j. -/
theorem gram_at (b : Fin 32) (i j : Fin 1024) :
    val_main_v4 (F := Ideal) x0 x1 (ix3 b i j) = gramOf (proj x0 x1 b) i j := by
  rw [val_main_v4_apply]
  unfold gramOf
  refine Finset.sum_congr rfl fun k _ => ?_
  have hl : lidx_main_v4 (ix3 b i j) k = ix3 b i k :=
    funext fun a => Fin.ext (by match a with | ⟨0, _⟩ => rfl | ⟨1, _⟩ => rfl | ⟨2, _⟩ => rfl)
  have hr : ridx_main_v4 (ix3 b i j) k = ix3 b j k :=
    funext fun a => Fin.ext (by match a with | ⟨0, _⟩ => rfl | ⟨1, _⟩ => rfl | ⟨2, _⟩ => rfl)
  rw [hl, hr, proj_at, proj_at]

/-- The reference's last stage is the specification's array of squared distances. -/
theorem result_eq : val_main_v11 (F := Ideal) x0 x1 = dist x0 x1 := by
  funext x
  obtain ⟨b, i, j, rfl⟩ : ∃ (b : Fin 32) (i j : Fin 1024), x = ix3 b i j := ⟨x 0, x 1, x 2, eq_ix3 x⟩
  have hrow : idx_main_v5 (idx_main_v8 (ix3 b i j)) = ix3 b j (0 : Fin 1) :=
    funext fun a => Fin.ext (by match a with | ⟨0, _⟩ => rfl | ⟨1, _⟩ => rfl | ⟨2, _⟩ => rfl)
  have hcol : idx_main_v10 (ix3 b i j) = ix3 b i (0 : Fin 1) :=
    funext fun a => Fin.ext (by match a with | ⟨0, _⟩ => rfl | ⟨1, _⟩ => rfl | ⟨2, _⟩ => rfl)
  rw [dist_ix3, val_main_v11_apply, val_main_v9_apply, val_main_v7_apply, val_main_v8_apply, val_main_v5_apply,
    val_main_v10_apply, val_main_v6_apply, val_main_cst_0_apply, hrow, hcol, sqn_kept_at, sqn_kept_at, gram_at]
  rfl

end Cert.PairDist.Ref

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.LibColumn.lean ====
/-
  A column of per-row values laid beside a matrix, read at an index.

  A reduction over a matrix's second axis with the axis kept ("keepdims") leaves one value per row, stored as a
  vector of length a, re-cast as an a × 1 column, and then broadcast across the b columns of the matrix it is
  combined with.  At entry (p, c) each of these re-layings reads the one value of row p: the cast keeps the row-major
  position, and the broadcast reads a unit axis at coordinate 0 whatever the column.
-/
import Idealize.ShloMosaic.Lib.Pipeline.Value
import Idealize.ShloMosaic.Lib.ValueIdx

namespace Cert.LibColumn

open Idealize.ShloMosaic Idealize.ShloMosaic.ValueIdx

variable {α : Type}

/-- A vector of length `a` cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to itself is itself. -/
theorem shapeCast_a1_a1_apply {a : ℕ} (x : (⟨2, ![a, 1]⟩ : Shape).Idx → α) (h : (⟨2, ![a, 1]⟩ : Shape).ShapeCasts ⟨2, ![a, 1]⟩)
    (j : (⟨2, ![a, 1]⟩ : Shape).Idx) : shapeCast ⟨2, ![a, 1]⟩ x h j = x j := by
  rw [shapeCast_self]

/-- An `a × 1` column broadcast across `b` columns reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibColumn
-- ==== Proof.Body.lean ====
/-
  What the kernel body stores, read at an index.

  The body holds one batch's embeddings as a [1, 1024, 1024] block and the weights transposed, [1024, 128]. It
  projects the rows (a matrix product into the zero accumulator: entry (s, r) is the sum over d of the block's
  (0, s, d) times the transposed weights' (d, r); the changes of float format around it are the identity on extended
  reals), sums the squared projections along each row (a lane sum from the zero word: the plain sum), re-lays those
  norms as a column, as a row (the column transposed) and as the two broadcasts over the square, multiplies the
  projections by their own transpose (entry (i, j) is the sum over r of projection (i, r) times projection (j, r)),
  and stores (row norm of j − 2 · product (i, j)) + column norm of i. Entry (u, i, j) of the stored block, whatever the
  unit coordinate u, is therefore the specification's squared distance over the body's own table of projections.
-/
import proofs.«155389_j61022895341727_1_alg».proof.Proof.Gen.KernelIdeal.Skeleton
import proofs.«155389_j61022895341727_1_alg».proof.Proof.Spec
import proofs.«155389_j61022895341727_1_alg».proof.Proof.LibDot
import proofs.«155389_j61022895341727_1_alg».proof.Proof.LibColumn
import Idealize.ShloMosaic.Lib.ValueLayout
import Idealize.ShloMosaic.Lib.Pipeline.Value
import Idealize.ShloMosaic.PureOps.Ideal.Laws

noncomputable section

open scoped BigOperators

namespace Cert.PairDist.Body

open Idealize.ShloMosaic Idealize.ShloMosaic.ValueIdx Cert.KernelIdeal Cert.KernelIdeal.Gen Cert.PairDist

/-- The table of projected rows the body computes from its embeddings block `v0` and the transposed weights `v3`. -/
def blockProj (v0 : Vec Ideal S1x1024x1024 .f32) (v3 : Vec Ideal S1024x128 .f32) (s : Fin 1024) (r : Fin 128) : EReal :=
  ∑ d : Fin 1024, v0 (ix3 (0 : Fin 1) s d) * v3 (ix2 d r)

/-- The first product at (s, r): the block viewed as a matrix times the transposed weights, into the zero accumulator. -/
theorem projected_at (x : FVec Ideal S1x1024x1024 .f32) (y : FVec Ideal S1024x128 .f32)
    (h1 : S1x1024x1024.ShapeCasts S1024x1024) (h2 : S1024x128.ShapeCasts S1024x128) (hb : FTy.bits .bf16 < FTy.bits .f32)
    (s : Fin 1024) (r : Fin 128) :
    matmul dot_S1024x1024_S1024x128_S1024x128_1_0_0_1_n_n none (truncf .bf16 (shapeCast S1024x1024 x h1) hb)
        (truncf .bf16 (shapeCast S1024x128 y h2) hb) (constant S1024x128 .f32 0x00000000#32) (ix2 s r)
      = blockProj x y s r := by
  refine (Cert.LibDot.matmul_zero_plain_apply dot_S1024x1024_S1024x128_S1024x128_1_0_0_1_n_n rfl rfl rfl rfl rfl rfl none
    _ _ (ix2 s r)).trans ?_
  unfold blockProj
  refine Finset.sum_congr rfl fun d _ => ?_
  exact congrArg₂ (· * ·) (shapeCast_1ab_ab_apply x h1 s d) (congrFun (shapeCast_self y h2) (ix2 d r))

/-- The lane sum of the squared entries of a [1024, 128] table, at row s: the sum over its 128 columns. -/
theorem sqnorm_at (p : FVec Ideal S1024x128 .f32) (h : S1024x128.Reduces [1] S1024) (hφ : FKind.Formats .f32)
    (hacc : (0x00000000#32 : BitVec 32) = FKind.add.neutral .f32 hφ) (s : Fin 1024) :
    multiReduction .add [1] S1024 (mulf p p) 0x00000000#32 h hφ hacc (ix1 s) = ∑ r : Fin 128, p (ix2 s r) * p (ix2 s r) := by
  refine (Ideal.multiReduction_add_single (mulf p p) 0x00000000#32 h hφ hacc (ix1 s)).trans ?_
  refine Finset.sum_congr rfl fun (k : Fin 128) _ => ?_
  have hk : h.lift (ix1 s) k = ix2 s k :=
    funext fun a => Fin.ext (by match a with | ⟨0, _⟩ => rfl | ⟨1, _⟩ => rfl)
  rw [hk]
  rfl

/-- The norms as a row over the square: column cast, transpose, broadcast down the rows — entry (i, j) is norm j. -/
theorem norm_row_at (n : FVec Ideal S1024 .f32) (hc : S1024.ShapeCasts S1024x1) (ht : S1024x1.Transposes [1, 0] S1x1024)
    (hbr : S1x1024.Broadcasts S1024x1024) (i j : Fin 1024) :
    broadcastTo S1024x1024 (transpose S1x1024 [1, 0] (shapeCast S1024x1 n hc) ht) hbr (ix2 i j) = n (ix1 j) :=
  (broadcastTo_1b_ab_apply _ hbr i j).trans
    ((transpose_ix2_apply (shapeCast S1024x1 n hc) ht (0 : Fin 1) j).trans (Cert.LibColumn.shapeCast_a_a1_apply n hc j 0))

/-- The norms as a column over the square: column cast, broadcast across the columns — entry (i, j) is norm i. -/
theorem norm_col_at (n : FVec Ideal S1024 .f32) (hc : S1024.ShapeCasts S1024x1) (hbc : S1024x1.Broadcasts S1024x1024)
    (i j : Fin 1024) : broadcastTo S1024x1024 (shapeCast S1024x1 n hc) hbc (ix2 i j) = n (ix1 i) :=
  (Cert.LibColumn.broadcastTo_a1_ab_apply _ hbc i j).trans (Cert.LibColumn.shapeCast_a_a1_apply n hc i 0)

/-- The second product at (i, j): a [1024, 128] table times its own transpose, into the zero accumulator. -/
theorem gram_at (p : FVec Ideal S1024x128 .f32) (hb : FTy.bits .bf16 < FTy.bits .f32)
    (ht : S1024x128.Transposes [1, 0] S128x1024) (i j : Fin 1024) :
    matmul dot_S1024x128_S128x1024_S1024x1024_1_0_0_1_n_n none (truncf .bf16 p hb)
        (transpose S128x1024 [1, 0] (truncf .bf16 p hb) ht) (constant S1024x1024 .f32 0x00000000#32) (ix2 i j)
      = ∑ r : Fin 128, p (ix2 i r) * p (ix2 j r) := by
  refine (Cert.LibDot.matmul_zero_plain_apply dot_S1024x128_S128x1024_S1024x1024_1_0_0_1_n_n rfl rfl rfl rfl rfl rfl none
    _ _ (ix2 i j)).trans ?_
  refine Finset.sum_congr rfl fun r _ => ?_
  exact congrArg₂ (· * ·) rfl (transpose_ix2_apply (truncf .bf16 p hb) ht r j)

/-- ENTRY (u, i, j) OF WHAT THE BODY STORES: the squared distance of rows i and j over the body's projections. -/
theorem payload_at (v0 : Vec Ideal S1x1024x1024 .f32) (v3 : Vec Ideal S1024x128 .f32) (u : Fin 1) (i j : Fin 1024) :
    k0_pay1 (F := Ideal) v0 v3 (ix3 u i j) = distOf (blockProj v0 v3) i j := by
  unfold k0_pay1
  refine (shapeCast_ab_1ab_apply _ _ u i j).trans ?_
  unfold distOf sqnOf gramOf
  refine congrArg₂ (· + ·) (congrArg₂ (· - ·) ?_ (congrArg₂ (· * ·) ?_ ?_)) ?_
  · refine (norm_row_at _ _ _ _ i j).trans ?_
    refine (sqnorm_at _ _ _ _ j).trans ?_
    exact Finset.sum_congr rfl fun r _ =>
      congrArg₂ (· * ·) (projected_at v0 v3 _ _ _ j r) (projected_at v0 v3 _ _ _ j r)
  · rfl
  · refine (gram_at _ _ _ i j).trans ?_
    exact Finset.sum_congr rfl fun r _ =>
      congrArg₂ (· * ·) (projected_at v0 v3 _ _ _ i r) (projected_at v0 v3 _ _ _ j r)
  · refine (norm_col_at _ _ _ i j).trans ?_
    refine (sqnorm_at _ _ _ _ i).trans ?_
    exact Finset.sum_congr rfl fun r _ =>
      congrArg₂ (· * ·) (projected_at v0 v3 _ _ _ i r) (projected_at v0 v3 _ _ _ i r)

end Cert.PairDist.Body

end
-- ==== Proof.KernelDist.lean ====
/-
  The pipelined kernel's result array is the specification's array of squared distances.

  Grid point t stages batch t of the embeddings (a [1, 1024, 1024] block whose entry (0, s, d) is the argument's
  (t, s, d)) and the whole of the transposed weights (which the program transposes before the region: entry (d, r) of
  what the region finds is the argument's (r, d)), so the body's table of projections at point t is the
  specification's for batch t, and what the point writes back — entry (0, i, j) of its block, which lands at (t, i, j)
  of the result — is the squared distance of rows i and j of batch t. The 32 blocks tile the result along its first
  axis: entry (b, i, j) lies in point b's block. Hence the array after the run is the specification's, whole.
-/
import proofs.«155389_j61022895341727_1_alg».proof.Proof.Gen.KernelIdeal.Value
import proofs.«155389_j61022895341727_1_alg».proof.Proof.Body
import Idealize.ShloMosaic.Lib.Pipeline.Value
import Idealize.ShloMosaic.Lib.ValueLayout
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.PairDist.Pipelined

open Cert.KernelIdeal Cert.KernelIdeal.Gen Cert.PairDist

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The block indices, decided over the 32 points: the embeddings' and the result's blocks move with the point along
    the first axis only; the transposed weights' block never moves. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The one host operation before the region: the region finds the weights transposed. -/
theorem V_wT (c : Dev nD) : (V m c main_v0 : S1024x128.Idx → EReal)
    = transpose S1024x128 [1, 0] (m ((c : Thread nD τ).loc main_arg1)) Gen.transposes_S128x1024_S1024x128_1_0 := by
  dsimp only [V, hostOps0]; after_results

/-- The embeddings' block at point t: entry (u, s, d) is the argument's (t, s, d). -/
theorem emb_block_at (c : Dev nD) (t : Fin cfg0.N) (b : Fin 32) (hb : b.val = t.val) (u : Fin 1) (s d : Fin 1024) :
    (iblk m c 0 t : Vec Ideal S1x1024x1024 .f32) (ix3 u s d)
      = (m ((c : Thread nD τ).loc main_arg0) : S32x1024x1024.Idx → EReal) (ix3 b s d) := by
  obtain ⟨e0, e1, e2, -⟩ := idx_facts t
  have hu : u.val = 0 := by omega
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 3) * 1 + 1 * u.val = b.val; omega
  | ⟨1, _⟩ => show win0_0.index t (1 : Fin 3) * 1024 + 1 * s.val = s.val; omega
  | ⟨2, _⟩ => show win0_0.index t (2 : Fin 3) * 1024 + 1 * d.val = d.val; omega

/-- The transposed weights' block at any point: entry (d, r) is the argument's (r, d). -/
theorem wT_block_at (c : Dev nD) (t : Fin cfg0.N) (d : Fin 1024) (r : Fin 128) :
    (iblk m c 1 t : Vec Ideal S1024x128 .f32) (ix2 d r)
      = (m ((c : Thread nD τ).loc main_arg1) : S128x1024.Idx → EReal) (ix2 r d) := by
  obtain ⟨-, -, -, e3, e4, -⟩ := idx_facts t
  unfold iblk
  rw [View.read_apply]
  show V m c main_v0 _ = _
  rw [V_wT]
  refine transpose_apply [1, 0] _ _ _ (ix2 r d) fun b => ?_
  match b with
  | ⟨0, _⟩ => show d.val = win0_1.index t (0 : Fin 2) * 1024 + 1 * d.val; omega
  | ⟨1, _⟩ => show r.val = win0_1.index t (1 : Fin 2) * 128 + 1 * r.val; omega

/-- What point t's body stores at a block index `y` is the specification at any array index `x` on batch t with `y`'s
    row and column. -/
theorem point_eq (c : Dev nD) (t : Fin cfg0.N) (y : S1x1024x1024.Idx) (x : S32x1024x1024.Idx)
    (hx0 : (x 0).val = t.val) (hx1 : (x 1).val = (y 1).val) (hx2 : (x 2).val = (y 2).val) :
    k0_pay1 (F := Ideal) (iblk m c 0 t) (iblk m c 1 t) y
      = dist (m ((c : Thread nD τ).loc main_arg0)) (m ((c : Thread nD τ).loc main_arg1)) x := by
  obtain ⟨u, i, j, rfl⟩ : ∃ (u : Fin 1) (i j : Fin 1024), y = ix3 u i j := ⟨y 0, y 1, y 2, eq_ix3 y⟩
  obtain ⟨b, i', j', rfl⟩ : ∃ (b : Fin 32) (i' j' : Fin 1024), x = ix3 b i' j' := ⟨x 0, x 1, x 2, eq_ix3 x⟩
  obtain rfl : i' = i := Fin.ext hx1
  obtain rfl : j' = j := Fin.ext hx2
  refine (Body.payload_at (iblk m c 0 t) (iblk m c 1 t) u i' j').trans ?_
  refine Eq.trans ?_ (dist_ix3 _ _ b i' j').symm
  unfold distAt
  refine congrArg (fun P => distOf P i' j') ?_
  funext s r
  unfold Body.blockProj proj
  exact Finset.sum_congr rfl fun d _ =>
    congrArg₂ (· * ·) (emb_block_at m c t b hx0 0 s d) (wT_block_at m c t d r)

/-- WHAT POINT t WRITES BACK is block t of the specification's array. -/
theorem flushed_eq (c : Dev nD) (t : Fin cfg0.N) :
    (dats m 0 c).flushed 2 t = ((cfg0.win 2).blk t).view.read (Elt Ideal)
      (dist (m ((c : Thread nD τ).loc main_arg0)) (m ((c : Thread nD τ).loc main_arg1))) := by
  rw [Cert.KernelIdeal.Value.flushed2]
  unfold out0_2
  rw [View.canon_unit_zero hz3]
  simp only [View.ld_unit_zero (S := S1x1024x1024) hz3, View.ld_unit_zero (S := S1024x128) hz2]
  obtain ⟨-, -, -, -, -, e5, e6, e7⟩ := idx_facts t
  funext y
  refine point_eq m c t y (((cfg0.win 2).blk t).view.emb y) ?_ ?_ ?_
  · show win0_2.index t (0 : Fin 3) * 1 + 1 * (y 0).val = t.val
    have hy : (y 0).val < 1 := (y 0).isLt
    omega
  · show win0_2.index t (1 : Fin 3) * 1024 + 1 * (y 1).val = (y 1).val
    omega
  · show win0_2.index t (2 : Fin 3) * 1024 + 1 * (y 2).val = (y 2).val
    omega

/-- An index of the result is in point t's block iff each coordinate is in the block's range on its axis. -/
theorem mem_blk (t : Fin cfg0.N) (i : S32x1024x1024.Idx) :
    i ∈ ((cfg0.win 2).blk t).view.set ↔ ∀ a : Fin 3, win0_2.index t a * S1x1024x1024.size a ≤ (i a).val
      ∧ (i a).val < win0_2.index t a * S1x1024x1024.size a + S1x1024x1024.size a := by
  show i ∈ ((View.whole main_v1).slice (win0_2.rect t)).set ↔ _
  rw [View.set_slice_whole, Rect.mem_set_unit]
  exact Iff.rfl

/-- Every index of the result is in the block of the point its batch coordinate names. -/
theorem covered (i : S32x1024x1024.Idx) :
    ∃ t : Fin cfg0.N, (cfg0.win 2).flush t = true ∧ i ∈ ((cfg0.win 2).blk t).view.set := by
  have hi0 : (i 0).val < 32 := (i 0).isLt
  have hi1 : (i 1).val < 1024 := (i 1).isLt
  have hi2 : (i 2).val < 1024 := (i 2).isLt
  have hN : cfg0.N = 32 := N_0
  obtain ⟨t, ht⟩ : ∃ t : Fin cfg0.N, t.val = (i 0).val := ⟨⟨(i 0).val, by rw [hN]; exact hi0⟩, rfl⟩
  obtain ⟨-, -, -, -, -, e5, e6, e7⟩ := idx_facts t
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1024 ≤ (i 1).val ∧ (i 1).val < win0_2.index t (1 : Fin 3) * 1024 + 1024
    omega
  | ⟨2, _⟩ =>
    show win0_2.index t (2 : Fin 3) * 1024 ≤ (i 2).val ∧ (i 2).val < win0_2.index t (2 : Fin 3) * 1024 + 1024
    omega

/-- THE RESULT ARRAY after the run is the specification's. -/
theorem final (c : Dev nD) : (dats m 0 c).arrAt 2 cfg0.N
    = dist (m ((c : Thread nD τ).loc main_arg0)) (m ((c : Thread nD τ).loc main_arg1)) :=
  (dats m 0 c).arrAt_eq_of_cover 2 (dist (m ((c : Thread nD τ).loc main_arg0)) (m ((c : Thread nD τ).loc main_arg1)))
    (fun t _ => flushed_eq m c t) covered

/-- The kernel's run, read: the result at the specification's array, the arguments unchanged. -/
theorem run : θ_run defs (onTc (τ := τ) (main (F := Ideal))) ⟨m, fun _ => 0, ρ⟩ fun r => ∀ c : Dev nD,
      r.2.mem ((c : Thread nD τ).loc main_v1)
        = dist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.PairDist.Pipelined

end
-- ==== Proof.lean ====
/-
  Pairwise squared distances of projected rows: a pipelined kernel against its array-level reference.

  Both programs take 32 batches of 1024 rows of 1024 entries and 128 weight rows of 1024 entries, project every row
  on every weight row (p(b, s, r) = Σ_d e(b, s, d) · w(r, d)), and return for every batch and every pair of rows
  (n(b, j) − 2 · g(b, i, j)) + n(b, i), with n(b, s) = Σ_r p(b, s, r)² the squared norm of a projected row and
  g(b, i, j) = Σ_r p(b, i, r) · p(b, j, r) the Gram entry. The kernel works one batch per grid point on the weights
  transposed beforehand, narrows its matrix products' operands to a shorter float format (the identity on extended
  reals), takes the norms by a lane sum and re-lays them as a row and as a column; the reference contracts the whole
  arrays at once and re-lays the norms by a kept unit axis and a swap of axes. Read on the extended reals the two are
  the same sums combined by the same three operations in the same order, so they agree at every entry with no
  condition on the inputs: no law is used beyond re-indexing a finite sum, and the precondition is never opened.

  Spec.lean states the result as one function of the two arguments; RefDist.lean reads the reference's operations
  down to it; Body.lean reads what the kernel body stores, at an index; KernelDist.lean carries that through the
  blocks to the whole result array. The three frames are the programs' runs; the idealization rewrote nothing.
-/
import proofs.«155389_j61022895341727_1_alg».proof.Defs
import proofs.«155389_j61022895341727_1_alg».proof.Proof.Gen.Kernel
import proofs.«155389_j61022895341727_1_alg».proof.Proof.Gen.Kernel.Skeleton
import proofs.«155389_j61022895341727_1_alg».proof.Proof.Gen.Kernel.Launch
import proofs.«155389_j61022895341727_1_alg».proof.Proof.Gen.Kernel.Points
import proofs.«155389_j61022895341727_1_alg».proof.Proof.Gen.Kernel.Frame
import proofs.«155389_j61022895341727_1_alg».proof.Proof.Gen.KernelIdeal
import proofs.«155389_j61022895341727_1_alg».proof.Proof.Gen.KernelIdeal.Skeleton
import proofs.«155389_j61022895341727_1_alg».proof.Proof.Gen.KernelIdeal.Launch
import proofs.«155389_j61022895341727_1_alg».proof.Proof.Gen.KernelIdeal.Points
import proofs.«155389_j61022895341727_1_alg».proof.Proof.Gen.KernelIdeal.Frame
import proofs.«155389_j61022895341727_1_alg».proof.Proof.Gen.KernelIdeal.Value
import proofs.«155389_j61022895341727_1_alg».proof.Proof.Gen.ReferenceIdeal
import proofs.«155389_j61022895341727_1_alg».proof.Proof.Gen.ReferenceIdeal.Run
import proofs.«155389_j61022895341727_1_alg».proof.Proof.Gen.ReferenceIdeal.Read
import proofs.«155389_j61022895341727_1_alg».proof.Proof.Gen.Pre_finite_inputs
import proofs.«155389_j61022895341727_1_alg».proof.Proof.RefDist
import proofs.«155389_j61022895341727_1_alg».proof.Proof.KernelDist
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- From memories agreeing on the arguments both programs end with the specification's array of squared distances:
    the kernel block by block, the reference operation by operation. -/
theorem algebraic : Cert.algebraic_KernelIdeal_ReferenceIdeal := by
  intro m ρ m' ρ' _ hagree
  refine ⟨_, Cert.PairDist.Pipelined.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v11_eq _ _).trans (Cert.PairDist.Ref.result_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
